-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192 .f32) (main_arg1 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192 : Shape := ⟨1, ![8192]⟩
abbrev S8192x8192 : Shape := ⟨2, ![8192, 8192]⟩
abbrev S8192x1 : Shape := ⟨2, ![8192, 1]⟩
abbrev S16x128 : Shape := ⟨2, ![16, 128]⟩
abbrev S256x1 : Shape := ⟨2, ![256, 1]⟩
abbrev S256x8192 : Shape := ⟨2, ![256, 8192]⟩
abbrev S8x128 : Shape := ⟨2, ![8, 128]⟩
abbrev S1x8192 : Shape := ⟨2, ![1, 8192]⟩
abbrev S256 : Shape := ⟨1, ![256]⟩
abbrev S1 : Shape := ⟨1, ![1]⟩
abbrev S1x1 : Shape := ⟨2, ![1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x1, .f32⟩
  | .hbm, ⟨3, _⟩ => ⟨S16x128, .f32⟩
  | .hbm, ⟨4, _⟩ => ⟨S_, .f32⟩
  | .hbm, ⟨5, _⟩ => ⟨S_, .f32⟩
  | .local _ .vmem, ⟨0, _⟩ => ⟨S256x1, .f32⟩
  | .local _ .vmem, ⟨1, _⟩ => ⟨S256x1, .f32⟩
  | .local _ .vmem, ⟨2, _⟩ => ⟨S256x8192, .f32⟩
  | .local _ .vmem, ⟨3, _⟩ => ⟨S256x8192, .f32⟩
  | .local _ .vmem, ⟨4, _⟩ => ⟨S8x128, .f32⟩
  | .local _ .vmem, ⟨5, _⟩ => ⟨S8x128, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S8x128_S8x128_0_0 : ∀ a, (![0, 0] : Fin 2 → Nat) a + S8x128.size a ≤ S8x128.size a
  h_S8x128 : 0 < S8x128.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x8192_S256x8192_0_0 : ∀ a, (![0, 0] : Fin 2 → Nat) a + S256x8192.size a ≤ S256x8192.size a
  h_S256x8192 : 0 < S256x8192.numel
  broadcasts_S256x1_S256x8192 : S256x1.Broadcasts S256x8192
  iota_S256x1_d0_w32 : S256x1.Iotas .tc 32 [0]
  iota_S1x8192_d1_w32 : S1x8192.Iotas .tc 32 [1]
  broadcasts_S1x8192_S256x8192 : S1x8192.Broadcasts S256x8192
  reduces_S256x8192_S256 : S256x8192.Reduces [1] S256
  shapeCasts_S256_S256x1 : S256.ShapeCasts S256x1
  reduces_S256x1_S1 : S256x1.Reduces [0] S1
  shapeCasts_S1_S1x1 : S1.ShapeCasts S1x1
  iota_S8x128_d0_w32 : S8x128.Iotas .tc 32 [0]
  iota_S8x128_d1_w32 : S8x128.Iotas .tc 32 [1]
  shapeCasts_S8x128_S8x128 : S8x128.ShapeCasts S8x128
  broadcasts_S1x1_S8x128 : S1x1.Broadcasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .f32 = 32 ∨ (Rect.block (s := S8192x1) S256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S8192x1 : Shape := ⟨2, ![8192, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x1, .f32⟩
  | .hbm, ⟨3, _⟩ => ⟨S8192x8192, .f32⟩
  | .hbm, ⟨4, _⟩ => ⟨S8192x8192, .f32⟩
  | .hbm, ⟨5, _⟩ => ⟨S8192x8192, .i32⟩
  | .hbm, ⟨6, _⟩ => ⟨S8192x8192, .i32⟩
  | .hbm, ⟨7, _⟩ => ⟨S_, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.Spec.lean ====
/-
  The number both programs compute, as one expression over the extended reals, and the regrouping of its sum.

  For a vector x of length 8192 and a square matrix a of side 8192, the squared distance of diag(x)·a from the
  identity matrix is the sum, over all rows R and columns j, of (x R · a R j − δ R j)², where δ R j is 1 on the
  diagonal and 0 off it.

  One program adds the 8192·8192 terms in one sum. The other cuts the rows into 32 tiles of 256 rows, adds each
  tile's terms into one number, and adds the tiles of each half of the matrix into one cell of a 16 × 128 array
  (the cell in row 0, column 0 of that half's 8 × 128 block; every other cell stays zero, because there the tile's
  number is multiplied by 0 before it is added), then adds all 2048 cells.

  Addition on the extended reals is commutative and associative, multiplying by 0 gives 0 and by 1 changes
  nothing, at the infinities too; so the two groupings are one number, for every x and a, finite or not.
-/
import Idealize.ShloMosaic.PureOps.Ideal
import Idealize.ShloMosaic.Lib.ValueIdx

noncomputable section

open scoped BigOperators

namespace Cert.InvertLoss

open Idealize.ShloMosaic Idealize.ShloMosaic.ValueIdx

/-! ## The terms -/

/-- The identity matrix's entry: 1 on the diagonal, 0 off it. -/
def delta (R j : ℕ) : EReal := if R = j then 1 else 0

/-- One squared residual: (x R · a R j − δ R j)², the square written as a product. -/
def term (x : (⟨1, ![8192]⟩ : Shape).Idx → EReal) (a : (⟨2, ![8192, 8192]⟩ : Shape).Idx → EReal) (R j : Fin 8192) : EReal :=
  (x (ix1 R) * a (ix2 R j) - delta R.val j.val) * (x (ix1 R) * a (ix2 R j) - delta R.val j.val)

/-- The same at a row given as a natural number; rows past the matrix contribute nothing (none is ever asked for). -/
def termN (x : (⟨1, ![8192]⟩ : Shape).Idx → EReal) (a : (⟨2, ![8192, 8192]⟩ : Shape).Idx → EReal) (R : ℕ) (j : Fin 8192) : EReal :=
  if h : R < 8192 then term x a ⟨R, h⟩ j else 0

/-- A row's sum of squared residuals. -/
def rowSum (x : (⟨1, ![8192]⟩ : Shape).Idx → EReal) (a : (⟨2, ![8192, 8192]⟩ : Shape).Idx → EReal) (R : ℕ) : EReal :=
  ∑ j : Fin 8192, termN x a R j

/-- Tile n's number: the sum over its 256 rows, 256 n … 256 n + 255. -/
def tileSum (x : (⟨1, ![8192]⟩ : Shape).Idx → EReal) (a : (⟨2, ![8192, 8192]⟩ : Shape).Idx → EReal) (n : ℕ) : EReal :=
  ∑ r : Fin 256, rowSum x a (256 * n + r.val)

/-- THE LOSS: the sum of all squared residuals. -/
def loss (x : (⟨1, ![8192]⟩ : Shape).Idx → EReal) (a : (⟨2, ![8192, 8192]⟩ : Shape).Idx → EReal) : EReal :=
  ∑ R : Fin 8192, ∑ j : Fin 8192, term x a R j

/-- The one cell that receives a tile's number: 1 at row 0, column 0 of a block, 0 elsewhere. -/
def hot (p q : ℕ) : EReal := if p = 0 ∧ q = 0 then 1 else 0

/-! ## Regrouping -/

/-- A sum over m·n consecutive naturals is the sum over m runs of n. -/
theorem sum_fin_mul {M : Type*} [AddCommMonoid M] (m n : ℕ) (f : ℕ → M) :
    ∑ R : Fin (m * n), f R.val = ∑ t : Fin m, ∑ r : Fin n, f (n * t.val + r.val) := by
  rw [← Equiv.sum_comp finProdFinEquiv (fun R : Fin (m * n) => f R.val), Fintype.sum_prod_type]
  refine Finset.sum_congr rfl fun t _ => Finset.sum_congr rfl fun r _ => ?_
  show f (r.val + n * t.val) = _
  rw [Nat.add_comm]

/-- The loss is the sum of the 32 tiles' numbers. -/
theorem loss_eq_tiles (x : (⟨1, ![8192]⟩ : Shape).Idx → EReal) (a : (⟨2, ![8192, 8192]⟩ : Shape).Idx → EReal) :
    loss x a = ∑ t : Fin 32, tileSum x a t.val := by
  have h : ∑ R : Fin 8192, rowSum x a R.val = ∑ t : Fin 32, ∑ r : Fin 256, rowSum x a (256 * t.val + r.val) :=
    sum_fin_mul 32 256 (rowSum x a)
  unfold loss
  refine Eq.trans (Finset.sum_congr rfl fun R _ => ?_) h
  unfold rowSum
  refine Finset.sum_congr rfl fun j _ => ?_
  unfold termN
  rw [dif_pos R.isLt]

/-- One cell after a half's sixteen steps: zero, then each tile's number times the cell's 0 or 1, added in turn.
    At the hot cell that is the sum of the sixteen numbers; elsewhere it is zero. -/
theorem cell_eq (T : ℕ → EReal) (b p q : ℕ) :
    (0 : EReal) + ∑ s ∈ Finset.range 16, T (b + s) * hot p q
      = if p = 0 ∧ q = 0 then ∑ s ∈ Finset.range 16, T (b + s) else 0 := by
  unfold hot
  split_ifs with h
  · simp only [mul_one, zero_add]
  · simp only [mul_zero, Finset.sum_const_zero, add_zero]

/-- A block that holds S at its hot cell and 0 elsewhere sums to S. -/
theorem sum_block (S : EReal) :
    ∑ p : Fin 8, ∑ q : Fin 128, (if p.val = 0 ∧ q.val = 0 then S else 0) = S := by
  refine (Finset.sum_eq_single (0 : Fin 8) ?_ ?_).trans ((Finset.sum_eq_single (0 : Fin 128) ?_ ?_).trans ?_)
  · intro p _ hp
    have hp' : p.val ≠ 0 := fun h => hp (Fin.ext h)
    exact Finset.sum_eq_zero fun q _ => if_neg fun h => hp' h.1
  · intro h; exact absurd (Finset.mem_univ _) h
  · intro q _ hq
    have hq' : q.val ≠ 0 := fun h => hq (Fin.ext h)
    exact if_neg fun h => hq' h.2
  · intro h; exact absurd (Finset.mem_univ _) h
  · exact if_pos ⟨rfl, rfl⟩

/-- THE LAW: the 16 × 128 array whose row 8c + p, column q holds the cell above for half c sums to the sum of the 32
    tile numbers. -/
theorem cells_sum (T : ℕ → EReal) :
    ∑ P : Fin 16, ∑ q : Fin 128,
        ((0 : EReal) + ∑ s ∈ Finset.range 16, T (16 * (P.val / 8) + s) * hot (P.val % 8) q.val)
      = ∑ t : Fin 32, T t.val := by
  have h16 : ∑ P : Fin 16, ∑ q : Fin 128,
        ((0 : EReal) + ∑ s ∈ Finset.range 16, T (16 * (P.val / 8) + s) * hot (P.val % 8) q.val)
      = ∑ c : Fin 2, ∑ p : Fin 8, ∑ q : Fin 128,
        ((0 : EReal) + ∑ s ∈ Finset.range 16, T (16 * ((8 * c.val + p.val) / 8) + s) * hot ((8 * c.val + p.val) % 8) q.val) :=
    sum_fin_mul 2 8 (fun P => ∑ q : Fin 128,
        ((0 : EReal) + ∑ s ∈ Finset.range 16, T (16 * (P / 8) + s) * hot (P % 8) q.val))
  have h32 : ∑ t : Fin 32, T t.val = ∑ c : Fin 2, ∑ s : Fin 16, T (16 * c.val + s.val) := sum_fin_mul 2 16 T
  rw [h16, h32]
  refine Finset.sum_congr rfl fun c _ => ?_
  have hd : ∀ p : Fin 8, (8 * c.val + p.val) / 8 = c.val := fun p => by have := p.isLt; omega
  have hm : ∀ p : Fin 8, (8 * c.val + p.val) % 8 = p.val := fun p => by have := p.isLt; omega
  simp only [hd, hm, cell_eq]
  rw [sum_block, Finset.sum_range]

end Cert.InvertLoss

end
-- ==== Proof.Words.lean ====
/-
  Machine integers that never wrap, and the 0/1 word of a comparison.

  Row and column numbers in both programs are 32-bit words built from naturals below 8192 by sums and products with
  small constants; nothing comes near 2³², so the word of a sum or product is the sum or product of the words, and two
  such words are equal exactly when the naturals are. A comparison yields one bit; read as a number that bit is 1 or 0,
  which is the identity matrix's entry.
-/
import Idealize.ShloMosaic.PureOps.Ideal
import Idealize.ShloMosaic.Lib.ValueIdx

noncomputable section

namespace Cert.InvertLoss

open Idealize.ShloMosaic Idealize.ShloMosaic.ValueIdx

/-- Below 2³² the word determines the natural. -/
theorem ofNat_inj32 {a b : ℕ} (ha : a < 4294967296) (hb : b < 4294967296)
    (h : BitVec.ofNat 32 a = BitVec.ofNat 32 b) : a = b := by
  have := congrArg BitVec.toNat h
  simp only [BitVec.toNat_ofNat] at this
  omega

/-- Comparing two such words for equality gives the bit 1 exactly when the naturals are equal. -/
theorem cmpi_eq_ofNat {a b : ℕ} (ha : a < 4294967296) (hb : b < 4294967296) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := fun e => h (ofNat_inj32 ha hb e)
    have hb' : (BitVec.ofNat 32 a == BitVec.ofNat 32 b) = false := beq_eq_false_iff_ne.mpr hne
    simp [h, hb']

/-- The word of a tile's row: half c, step i, row r inside the tile is row 4096 c + 256 i + r, as words too. -/
theorem rowWord (c i r : ℕ) :
    IntOp.addi (Scalar.addi (Scalar.muli (BitVec.ofNat 32 c) 4096#32) (Scalar.muli (BitVec.ofNat 32 i) 256#32))
        (BitVec.ofNat 32 r)
      = BitVec.ofNat 32 (4096 * c + 256 * i + r) := by
  unfold IntOp.addi Scalar.addi Scalar.muli IntOp.addi IntOp.muli
  apply BitVec.eq_of_toNat_eq
  simp only [BitVec.toNat_add, BitVec.toNat_mul, BitVec.toNat_ofNat]
  omega

/-- Adding the zero word changes nothing. -/
theorem addi_zero32 (x : BitVec 32) : IntOp.addi x 0#32 = x := by
  unfold IntOp.addi
  exact BitVec.add_zero x

end Cert.InvertLoss

end
-- ==== Proof.RefValue.lean ====
/-
  The plain program computes the loss.

  Read one operation at a time: the vector is spread along the columns, multiplied entry by entry with the matrix;
  the identity matrix is the comparison "row number = column number" turned into the number 1 or 0; the difference
  is multiplied by itself; and everything is added to a zero. At row R, column j that is exactly the squared
  residual (x R · a R j − δ R j)², so the result is 0 + the loss.
-/
import proofs.«121351_j68779606278977_2_alg».proof.Proof.Gen.ReferenceIdeal.Read
import proofs.«121351_j68779606278977_2_alg».proof.Proof.Spec
import proofs.«121351_j68779606278977_2_alg».proof.Proof.Words
import Idealize.ShloMosaic.Lib.ValueIdx

noncomputable section

open scoped BigOperators

namespace Cert.InvertLoss.Ref

open Cert.ReferenceIdeal Cert.ReferenceIdeal.Gen Cert.ReferenceIdeal.Read
open Idealize.ShloMosaic Idealize.ShloMosaic.ValueIdx Cert.InvertLoss

/-- The identity matrix's entry as the plain program makes it: the one-bit comparison of the row word (plus a zero
    word) with the column word, read as a number. -/
theorem eye_word (R j : ℕ) (hR : R < 8192) (hj : j < 8192) :
    FloatOps.uitofp (F := Ideal) .f32 (IntOp.cmpi .eq (IntOp.addi (BitVec.ofNat 32 R) 0#32) (BitVec.ofNat 32 j))
      = delta R j := by
  rw [addi_zero32, cmpi_eq_ofNat (by omega) (by omega)]
  unfold delta
  show (((if R = j then 1#1 else 0#1 : BitVec 1).toNat : ℝ) : EReal) = _
  split_ifs <;> simp

/-- The squared-difference array at row R, column j is the squared residual. -/
theorem v10_apply (X : (⟨S8192, .f32⟩ : BufTy).Contents (Elt Ideal)) (A : (⟨S8192x8192, .f32⟩ : BufTy).Contents (Elt Ideal))
    (R j : Fin 8192) : val_main_v10 (F := Ideal) X A (ix2 R j) = term X A R j := by
  have hi : idx_main_v0 (idx_main_v1 (ix2 R j)) = ix1 R := funext fun a => by match a with | ⟨0, _⟩ => rfl
  have he : FloatOps.uitofp (F := Ideal) .f32 (val_main_v7 (F := Ideal) (ix2 R j)) = delta R.val j.val := by
    rw [val_main_v7_apply, val_main_v6_apply, val_main_v3_apply, val_main_v5_apply, val_main_c_apply, val_main_v4_apply]
    exact eye_word R.val j.val R.isLt j.isLt
  rw [val_main_v10_apply, val_main_v9_apply, val_main_v2_apply, val_main_v1_apply, val_main_v0_apply, val_main_v8_apply,
    hi, he]
  rfl

/-- THE PLAIN PROGRAM'S RESULT: the zero it starts from, plus the loss. -/
theorem result_eq (X : (⟨S8192, .f32⟩ : BufTy).Contents (Elt Ideal)) (A : (⟨S8192x8192, .f32⟩ : BufTy).Contents (Elt Ideal)) :
    val_main_v11 (F := Ideal) X A = fun _ => Ideal.ofBits .f32 0x00000000#32 + loss X A := by
  funext i
  rw [val_main_v11_apply, sum_idx2]
  unfold loss
  simp only [v10_apply]
  rfl

end Cert.InvertLoss.Ref

end
-- ==== Proof.LibClipLaw.lean ====
/-
  Clipping a row to the unit ball, on the extended reals: general lemmas (no program, no shape).

  For a row with sum of squares `s`, one program scales the row by `min 1 (1 · s^(-1/2))`, the other by
  `1 / max (√s / 1) 1`. For every extended real `s ≥ 0` these are one number:
    * `s = 0`:  `s^(-1/2) = +∞`, so the minimum is `1`; and `√0 = 0`, `max 0 1 = 1`, `1 / 1 = 1`;
    * `0 < s < +∞`:  both are `1 / max (√s) 1`, since `min 1 (1/a) = 1 / max a 1` for a real `a > 0`;
    * `s = +∞`:  `s^(-1/2) = 0`, so the minimum is `0`; and `√s = +∞`, `1 / +∞ = 0`.
  Below zero the two sides differ (their conventional values there are not the same), so the hypothesis `0 ≤ s` is
  used; it always holds of a sum of squares, whatever the entries: `x · x ≥ 0` for every extended real `x`, the
  infinities included (`(-∞)·(-∞) = +∞`).
-/
import Idealize.ShloMosaic.PureOps.Ideal
import Mathlib.Algebra.Order.BigOperators.Group.Finset

noncomputable section

open scoped BigOperators

namespace Cert.Clip

open Idealize.ShloMosaic

/-- The single-precision pattern of `1.0` denotes the extended real `1`. -/
theorem ofBits_one : Ideal.ofBits .f32 0x3F800000#32 = 1 := by
  simp [Ideal.ofBits, Ideal.ieee, -EReal.coe_mul]; norm_num

/-- The factor a row of squared length `s` is scaled by: `min 1 (1 · s^(-1/2))`. -/
def scale (s : EReal) : EReal := min 1 (1 * Ideal.rsqrt s)

/-- A square is never negative on the extended reals. -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact_mod_cast _root_.mul_self_nonneg r

/-- So a sum of squares is never negative. -/
theorem sum_mul_self_nonneg {ι : Type} [Fintype ι] (f : ι → EReal) : 0 ≤ ∑ k, f k * f k :=
  Finset.sum_nonneg fun k _ => mul_self_nonneg (f k)

/-- Dividing by one changes nothing, at the infinities too. -/
theorem div_one (x : EReal) : Ideal.div x 1 = x := by
  rw [Ideal.div, if_neg one_ne_zero, ← EReal.coe_one, ← EReal.coe_inv, inv_one, EReal.coe_one, mul_one]

/-- One over a nonzero real is the real reciprocal. -/
theorem one_div_coe {y : ℝ} (hy : y ≠ 0) : Ideal.div 1 (y : EReal) = ((y⁻¹ : ℝ) : EReal) := by
  rw [Ideal.div, if_neg (by exact_mod_cast hy), one_mul, ← EReal.coe_inv]

/-- The coercion of the reals into the extended reals keeps maxima and minima. -/
theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

/-- For a positive real `a`: `min 1 (1/a) = 1 / max a 1`. -/
theorem min_one_inv {a : ℝ} (ha : 0 < a) : min 1 a⁻¹ = (max a 1)⁻¹ := by
  rcases le_total a 1 with h | h
  · rw [max_eq_right h, inv_one, min_eq_left]
    exact (one_le_inv₀ ha).mpr h
  · rw [max_eq_left h, min_eq_right]
    exact inv_le_one_of_one_le₀ h

/-- THE LAW: on a nonnegative extended real the two spellings of the clipping factor agree. -/
theorem scale_eq (s : EReal) (hs : 0 ≤ s) :
    scale s = Ideal.div 1 (max (Ideal.div (Ideal.sqrt s) 1) 1) := by
  unfold scale
  rw [div_one, one_mul]
  induction s using EReal.rec with
  | bot => exact absurd hs (not_le.mpr EReal.bot_lt_zero)
  | top =>
    rw [Ideal.rsqrt_top, Ideal.sqrt_top, max_eq_left le_top, Ideal.div, if_neg EReal.top_ne_zero, EReal.inv_top,
      mul_zero, min_eq_right zero_le_one]
  | coe r =>
    have hr : 0 ≤ r := EReal.coe_nonneg.mp hs
    rw [Ideal.rsqrt_coe, Ideal.sqrt_coe, if_neg (not_lt.mpr hr), if_neg (not_lt.mpr hr)]
    rcases hr.eq_or_lt with h0 | hpos
    · subst h0
      rw [if_pos rfl, Real.sqrt_zero, min_eq_left le_top, EReal.coe_zero, max_eq_right zero_le_one, div_one]
    · have hq : 0 < Real.sqrt r := Real.sqrt_pos.mpr hpos
      have e1 : max ((Real.sqrt r : ℝ) : EReal) 1 = ((max (Real.sqrt r) 1 : ℝ) : EReal) := by
        rw [coe_max, EReal.coe_one]
      have e2 : min (1 : EReal) (((Real.sqrt r)⁻¹ : ℝ) : EReal) = ((min 1 (Real.sqrt r)⁻¹ : ℝ) : EReal) := by
        rw [coe_min, EReal.coe_one]
      rw [if_neg hpos.ne', e1, e2, one_div_coe (lt_of_lt_of_le hq (le_max_left _ _)).ne', min_one_inv hq]

end Cert.Clip

end
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.Payload.lean ====
/-
  The tiled program's arithmetic at one grid step, read entry by entry at the exact values.

  At the step for half c and tile i of that half, the body holds a 256 × 1 block x₀ of the vector (as a column) and
  the matching 256 × 8192 block x₁ of the matrix. It forms, at row r and column j of the tile,
      x₀ r · x₁ r j − δ (4096 c + 256 i + r) j,
  squares it, sums each row, then sums the 256 row sums into one number: the tile's number. It multiplies that number
  by a mask that is 1 at row 0, column 0 of an 8 × 128 block and 0 elsewhere, and adds the product to the block it
  carries from the step before (a block of zeros at a half's first step).
-/
import proofs.«121351_j68779606278977_2_alg».proof.Proof.Gen.KernelIdeal.Skeleton
import proofs.«121351_j68779606278977_2_alg».proof.Proof.Spec
import proofs.«121351_j68779606278977_2_alg».proof.Proof.Words
import proofs.«121351_j68779606278977_2_alg».proof.Proof.LibClipLaw
import proofs.«121351_j68779606278977_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.InvertLoss.Body

open Cert.KernelIdeal Cert.KernelIdeal.Gen
open Idealize.ShloMosaic Idealize.ShloMosaic.ValueIdx Cert.InvertLoss

/-- One squared residual of a tile: row r, column j of the tile at half c, step i. -/
def tileTerm (c i : ℕ) (x0 : FVec Ideal S256x1 .f32) (x1 : FVec Ideal S256x8192 .f32) (r : Fin 256) (j : Fin 8192) : EReal :=
  (x0 (ix2 r (0 : Fin 1)) * x1 (ix2 r j) - delta (4096 * c + 256 * i + r.val) j.val)
    * (x0 (ix2 r (0 : Fin 1)) * x1 (ix2 r j) - delta (4096 * c + 256 * i + r.val) j.val)

/-- The residual at row r, column j: the column entry times the matrix entry, minus the identity's entry, which the
    body makes by comparing the row word 4096 c + 256 i + r with the column word j and choosing 1.0 or 0.0. -/
theorem resid_apply (c i : ℕ) (hc : c < 2) (hi : i < 16) (x0 : FVec Ideal S256x1 .f32) (x1 : FVec Ideal S256x8192 .f32)
    (r : Fin 256) (j : Fin 8192)
    (h1 : S256x1.ShapeCasts S256x1) (h2 : S256x1.Broadcasts S256x8192) (h3 : S1x8192.Broadcasts S256x8192)
    (hi0 : S256x1.Iotas .tc 32 [0]) (hi1 : S1x8192.Iotas .tc 32 [1]) :
    subf (mulf (broadcastTo S256x8192 (shapeCast S256x1 x0 h1) h2) x1)
        (select
          (cmpi .eq
            (broadcastTo S256x8192
              (addi (broadcast S256x1 (Scalar.addi (Scalar.muli (BitVec.ofNat 32 c) 4096#32) (Scalar.muli (BitVec.ofNat 32 i) 256#32)))
                (iota .tc S256x1 32 [0] hi0)) h2)
            (broadcastTo S256x8192 (iota .tc S1x8192 32 [1] hi1) h3))
          (broadcast S256x8192 (FloatOps.ofBits (F := Ideal) .f32 0x3F800000#32))
          (broadcast S256x8192 (FloatOps.ofBits (F := Ideal) .f32 0x00000000#32))) (ix2 r j)
      = x0 (ix2 r (0 : Fin 1)) * x1 (ix2 r j) - delta (4096 * c + 256 * i + r.val) j.val := by
  have e1 : broadcastTo S256x8192 (shapeCast S256x1 x0 h1) h2 (ix2 r j) = x0 (ix2 r (0 : Fin 1)) := by
    rw [Cert.Column.broadcastTo_a1_ab_apply, shapeCast_self]
  have e2 : broadcastTo S256x8192
      (addi (broadcast S256x1 (Scalar.addi (Scalar.muli (BitVec.ofNat 32 c) 4096#32) (Scalar.muli (BitVec.ofNat 32 i) 256#32)))
        (iota .tc S256x1 32 [0] hi0)) h2 (ix2 r j) = BitVec.ofNat 32 (4096 * c + 256 * i + r.val) := by
    rw [Cert.Column.broadcastTo_a1_ab_apply]
    show IntOp.addi _ (iota .tc S256x1 32 [0] hi0 (ix2 r (0 : Fin 1))) = _
    rw [iota_single_apply]
    exact rowWord c i r.val
  have e3 : broadcastTo S256x8192 (iota .tc S1x8192 32 [1] hi1) h3 (ix2 r j) = BitVec.ofNat 32 j.val := by
    rw [broadcastTo_1b_ab_apply, iota_single_apply]
  show broadcastTo S256x8192 (shapeCast S256x1 x0 h1) h2 (ix2 r j) * x1 (ix2 r j)
      - Scalar.select (IntOp.cmpi .eq
          (broadcastTo S256x8192
            (addi (broadcast S256x1 (Scalar.addi (Scalar.muli (BitVec.ofNat 32 c) 4096#32) (Scalar.muli (BitVec.ofNat 32 i) 256#32)))
              (iota .tc S256x1 32 [0] hi0)) h2 (ix2 r j))
          (broadcastTo S256x8192 (iota .tc S1x8192 32 [1] hi1) h3 (ix2 r j)))
        (Ideal.ofBits .f32 0x3F800000#32) (Ideal.ofBits .f32 0x00000000#32) = _
  have hr := r.isLt
  have hj := j.isLt
  rw [e1, e2, e3, cmpi_eq_ofNat (by omega) (by omega)]
  unfold delta
  split_ifs with h
  · rw [select_one, Cert.Clip.ofBits_one]
  · rw [select_zero, Ideal.ofBits_zero_f32]

/-- THE TILE'S NUMBER: what the body computes from its two blocks is the sum of the tile's squared residuals. -/
theorem pay3_apply (i : grid0.Coords) (x0 : Vec Ideal S256x1 .f32) (x1 : Vec Ideal S256x8192 .f32) (u v : Fin 1) :
    k0_pay3 (F := Ideal) i x0 x1 (ix2 u v) = ∑ r : Fin 256, ∑ j : Fin 8192, tileTerm (i 0).val (i 1).val x0 x1 r j := by
  have hc : (i 0).val < 2 := (i 0).isLt
  have hi : (i 1).val < 16 := (i 1).isLt
  unfold k0_pay3
  refine (Cert.Column.shapeCast_1_11_apply _ _ u v).trans ?_
  refine (Cert.Column.colSum_apply _ _ _ _ _ (0 : Fin 1)).trans ?_
  refine Finset.sum_congr rfl fun r _ => ?_
  refine (Cert.Column.shapeCast_a_a1_apply _ _ r (0 : Fin 1)).trans ?_
  refine (Cert.Column.laneSum_apply _ _ _ _ _ r).trans ?_
  refine Finset.sum_congr rfl fun j _ => ?_
  unfold tileTerm
  rw [← resid_apply (i 0).val (i 1).val hc hi x0 x1 r j shapeCasts_S256x1_S256x1 broadcasts_S256x1_S256x8192
    broadcasts_S1x8192_S256x8192 iota_S256x1_d0_w32 iota_S1x8192_d1_w32]
  rfl

/-- THE MASK: 1 at row 0, column 0 of the block, 0 elsewhere. -/
theorem pay4_apply (p : Fin 8) (q : Fin 128) : k0_pay4 (F := Ideal) (ix2 p q) = hot p.val q.val := by
  have hp := p.isLt
  have hq := q.isLt
  unfold k0_pay4
  show Scalar.select (IntOp.andi
        (IntOp.cmpi .eq (iota .tc S8x128 32 [0] iota_S8x128_d0_w32 (ix2 p q)) (BitVec.ofNat 32 0))
        (IntOp.cmpi .eq (iota .tc S8x128 32 [1] iota_S8x128_d1_w32 (ix2 p q)) (BitVec.ofNat 32 0)))
      (Ideal.ofBits .f32 0x3F800000#32) (Ideal.ofBits .f32 0x00000000#32) = _
  rw [iota_single_apply, iota_single_apply]
  show Scalar.select (IntOp.andi (IntOp.cmpi .eq (BitVec.ofNat 32 p.val) (BitVec.ofNat 32 0))
        (IntOp.cmpi .eq (BitVec.ofNat 32 q.val) (BitVec.ofNat 32 0))) _ _ = _
  rw [cmpi_eq_ofNat (by omega) (by omega), cmpi_eq_ofNat (by omega) (by omega)]
  unfold hot IntOp.andi
  by_cases hp0 : p.val = 0 <;> by_cases hq0 : q.val = 0 <;>
    simp [hp0, hq0, select_one, select_zero, Cert.Clip.ofBits_one]

/-- THE STEP: the carried block plus the tile's number times the mask, cell by cell. -/
theorem pay1_apply (v26 : FVec Ideal S1x1 .f32) (v36 v38 : FVec Ideal S8x128 .f32) (p : Fin 8) (q : Fin 128) :
    k0_pay1 (F := Ideal) v26 v36 v38 (ix2 p q) = v38 (ix2 p q) + v26 (ix2 (0 : Fin 1) (0 : Fin 1)) * v36 (ix2 p q) := by
  unfold k0_pay1
  show v38 (ix2 p q) + broadcastTo S8x128 v26 broadcasts_S1x1_S8x128 (ix2 p q) * v36 (ix2 p q) = _
  rw [Cert.Column.broadcastTo_11_ab_apply]

/-- The block a half starts from: zeros. -/
theorem pay2_apply (y : S8x128.Idx) : k0_pay2 (F := Ideal) y = 0 := by
  unfold k0_pay2
  show Ideal.ofBits .f32 0x00000000#32 = 0
  exact Ideal.ofBits_zero_f32

/-- The carried block is read back as it is. -/
theorem pay5_eq {F : FTy → Type} [FloatOps F] (v : Vec F S8x128 .f32) : k0_pay5 (F := F) v = v := by
  unfold k0_pay5
  exact shapeCast_self _ _

end Cert.InvertLoss.Body

end
-- ==== Proof.Blocks.lean ====
/-
  The blocks a grid step works on, as rows of the whole vector and matrix.

  The 32 grid points are numbered t = 16 c + i for half c and step i. At point t the vector's window holds rows
  256 t … 256 t + 255 of the vector (which the host first views as an 8192 × 1 column), the matrix's window holds the
  same rows of the matrix, all 8192 columns, and the accumulator's window is block t / 16 of the 16 × 128 array. A
  window's block at a point starts at (block index) × (block size) along each axis.

  So the row word the body forms, 4096 c + 256 i + r, is row 256 t + r of the whole matrix, and the tile's number at
  point t is the sum of the squared residuals of those 256 rows.
-/
import proofs.«121351_j68779606278977_2_alg».proof.Proof.Gen.KernelIdeal.Frame
import proofs.«121351_j68779606278977_2_alg».proof.Proof.Payload
import proofs.«121351_j68779606278977_2_alg».proof.Proof.LibColumn
import Idealize.ShloMosaic.Lib.Pipeline.Value
import Idealize.ShloMosaic.Lib.StableHlo.Run
import Idealize.ShloMosaic.Lib.ValueIdx
import Idealize.ShloMosaic.Lib.Tactic

noncomputable section

open scoped BigOperators

namespace Cert.InvertLoss.Blocks

open Idealize.ShloMosaic Idealize.ShloMosaic.TcCoe Idealize.SL.Sem Idealize.ShloMosaic.Tactic Idealize.ShloMosaic.ValueIdx
open Cert.KernelIdeal Cert.KernelIdeal.Gen Cert.InvertLoss

/-! ## Where each window's block sits, decided once over the 32 points -/

theorem idxF0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idxF1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idxF2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
/-- Point t is half t / 16, step t % 16. -/
theorem coordsF : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

section AnyFormat

variable {F : FTy → Type} [FloatOps F]
variable (m : (ℓ : Loc nD τ sig) → Buf (Elt F) ℓ)

/-- What the region finds in the column buffer: the host's view of the vector as an 8192 × 1 column. -/
theorem V_v0 (c : Dev nD) :
    (V m c main_v0 : S8192x1.Idx → Elt F .f32)
      = shapeCast S8192x1 (m ((c : Thread nD τ).loc main_arg0)) shapeCasts_S8192_S8192x1 := by
  show StableHlo.after hostOps0 (fun b => m (c, b)) (Proc.devRef .tc main_v0) = _
  after_results
  rfl

/-- The vector window's block at point t, row r: row 256 t + r of the column. -/
theorem iblk0_apply (c : Dev nD) (t : Fin cfg0.N) (r : Fin 256) (u : Fin 1) (hR : 256 * t.val + r.val < 8192) :
    (iblk m c 0 t : Vec F S256x1 .f32) (ix2 r u)
      = (V m c main_v0 : S8192x1.Idx → Elt F .f32) (ix2 (⟨256 * t.val + r.val, hR⟩ : Fin 8192) (0 : Fin 1)) := by
  unfold iblk
  rw [View.read_apply]
  show (V m c main_v0 : S8192x1.Idx → Elt F .f32) _ = _
  refine congrArg (V m c main_v0 : S8192x1.Idx → Elt F .f32) ?_
  funext a
  apply Fin.ext
  match a with
  | ⟨0, _⟩ => show win0_0.index t 0 * 256 + 1 * r.val = 256 * t.val + r.val; rw [(idxF0 t).1]; omega
  | ⟨1, _⟩ => show win0_0.index t 1 * 1 + 1 * u.val = 0; rw [(idxF0 t).2]; omega

/-- The matrix window's block at point t, row r, column j: row 256 t + r, column j of the matrix as launched. -/
theorem iblk1_apply (c : Dev nD) (t : Fin cfg0.N) (r : Fin 256) (j : Fin 8192) (hR : 256 * t.val + r.val < 8192) :
    (iblk m c 1 t : Vec F S256x8192 .f32) (ix2 r j)
      = (m ((c : Thread nD τ).loc main_arg1) : S8192x8192.Idx → Elt F .f32) (ix2 (⟨256 * t.val + r.val, hR⟩ : Fin 8192) j) := by
  unfold iblk
  rw [View.read_apply]
  show (V m c main_arg1 : S8192x8192.Idx → Elt F .f32) _ = _
  rw [V_main_arg1 m c]
  refine congrArg (m ((c : Thread nD τ).loc main_arg1) : S8192x8192.Idx → Elt F .f32) ?_
  funext a
  apply Fin.ext
  match a with
  | ⟨0, _⟩ => show win0_1.index t 0 * 256 + 1 * r.val = 256 * t.val + r.val; rw [(idxF1 t).1]; omega
  | ⟨1, _⟩ => show win0_1.index t 1 * 8192 + 1 * j.val = j.val; rw [(idxF1 t).2]; omega

end AnyFormat

/-! ## At the exact values -/

variable (m : (ℓ : Loc nD τ sig) → Buf (Elt Ideal) ℓ)

/-- The vector window's block at point t, row r, is entry 256 t + r of the vector as launched. -/
theorem x_entry (c : Dev nD) (t : Fin cfg0.N) (r : Fin 256) (hR : 256 * t.val + r.val < 8192) :
    (iblk m c 0 t : Vec Ideal S256x1 .f32) (ix2 r (0 : Fin 1))
      = (m ((c : Thread nD τ).loc main_arg0) : S8192.Idx → EReal) (ix1 (⟨256 * t.val + r.val, hR⟩ : Fin 8192)) := by
  rw [iblk0_apply m c t r 0 hR, V_v0 m c]
  exact Cert.Column.shapeCast_a_a1_apply _ _ _ _

/-- THE TILE'S NUMBER AT POINT t is the sum of the squared residuals of rows 256 t … 256 t + 255. -/
theorem tile_eq (c : Dev nD) (t : Fin cfg0.N) (u v : Fin 1) :
    k0_pay3 (F := Ideal) (grid0.coords t) (iblk m c 0 t) (iblk m c 1 t) (ix2 u v)
      = tileSum (m ((c : Thread nD τ).loc main_arg0)) (m ((c : Thread nD τ).loc main_arg1)) t.val := by
  have hN : t.val < 32 := lt_of_lt_of_eq t.isLt (show cfg0.N = 32 from N_0)
  refine (Body.pay3_apply (grid0.coords t) (iblk m c 0 t) (iblk m c 1 t) u v).trans ?_
  unfold tileSum rowSum
  refine Finset.sum_congr rfl fun r _ => Finset.sum_congr rfl fun j _ => ?_
  have hr := r.isLt
  have hR : 256 * t.val + r.val < 8192 := by omega
  unfold termN
  rw [dif_pos hR]
  unfold Body.tileTerm term
  have e : 4096 * (grid0.coords t 0).val + 256 * (grid0.coords t 1).val + r.val = 256 * t.val + r.val := by
    rw [(coordsF t).1, (coordsF t).2]; omega
  rw [x_entry m c t r hR, iblk1_apply m c t r j hR, e]

end Cert.InvertLoss.Blocks

end
-- ==== Proof.Pieces.lean ====
/-
  What one grid step leaves in the accumulator block, for any number format.

  The body ends with one store that covers the whole 8 × 128 block, so the block afterwards is that store's value:
  the step applied to the tile's number, the mask, and the block the step read. At a half's first step the block it
  read is the block of zeros it had just stored (that earlier store is overwritten); at every other step it is the
  block the step before left.
-/
import proofs.«121351_j68779606278977_2_alg».proof.Proof.Gen.KernelIdeal.Frame
import Idealize.ShloMosaic.Lib.Pipeline.Value
import Idealize.ShloMosaic.Lib.Tactic

noncomputable section

namespace Cert.InvertLoss.Step

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- A later step of a half: the block xo carried from the step before, plus the tile's number times the mask. -/
theorem out_B (c : Dev nD) (i : grid0.Coords) (a2 : Memref sig .tc .vmem S256x1 .f32) (h2 : a2.IsWhole)
    (a3 : Memref sig .tc .vmem S256x8192 .f32) (h3 : a3.IsWhole) (a4 : Memref sig .tc .vmem S8x128 .f32) (h4 : a4.IsWhole)
    (hc : ¬cond0_0 i) (x0 : Vec F S256x1 .f32) (x1 : Vec F S256x8192 .f32) (xo : Vec F S8x128 .f32) :
    out0_B_2 c i a2 h2 a3 h3 a4 h4 hc x0 x1 xo = k0_pay1 (k0_pay3 i x0 x1) (k0_pay4 (F := F)) (k0_pay5 xo) := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S256x1) hz,
    View.ld_unit_zero (S := S256x8192) hz, View.ld_unit_zero (S := S8x128) hz]

/-- A half's first step: the block of zeros just stored, plus the tile's number times the mask. -/
theorem out_A (c : Dev nD) (i : grid0.Coords) (a2 : Memref sig .tc .vmem S256x1 .f32) (h2 : a2.IsWhole)
    (a3 : Memref sig .tc .vmem S256x8192 .f32) (h3 : a3.IsWhole) (a4 : Memref sig .tc .vmem S8x128 .f32) (h4 : a4.IsWhole)
    (hc : cond0_0 i) (x0 : Vec F S256x1 .f32) (x1 : Vec F S256x8192 .f32) :
    out0_A_2 c i a2 h2 a3 h3 a4 h4 hc x0 x1
      = k0_pay1 (k0_pay3 i x0 x1) (k0_pay4 (F := F)) (k0_pay5 (k0_pay2 (F := F))) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h2.read_unread, h3.read_unread, View.ld_unit_zero (S := S256x1) hz,
    View.ld_unit_zero (S := S256x8192) hz]

end Cert.InvertLoss.Step

end
-- ==== Proof.Accum.lean ====
/-
  The accumulator block over a half's sixteen steps, at the exact values.

  Within a half the block is reset at the first step and added to at each later one, so after the half's last step a
  cell holds: zero, plus for each of the sixteen tiles in turn that tile's number times the cell's mask value.
  Stated for any half q as a sum over the sixteen steps; proved by the fold over the steps, not by listing the points.
-/
import proofs.«121351_j68779606278977_2_alg».proof.Proof.Gen.KernelIdeal.Frame
import proofs.«121351_j68779606278977_2_alg».proof.Proof.Payload
import proofs.«121351_j68779606278977_2_alg».proof.Proof.Pieces
import proofs.«121351_j68779606278977_2_alg».proof.Proof.Blocks
import Idealize.ShloMosaic.Lib.Pipeline.Value
import Idealize.ShloMosaic.Lib.ValueIdx

noncomputable section

open scoped BigOperators

namespace Cert.InvertLoss.Accum

open Idealize.ShloMosaic Idealize.ShloMosaic.TcCoe Idealize.SL.Sem Idealize.ShloMosaic.ValueIdx
open Cert.KernelIdeal Cert.KernelIdeal.Gen Cert.InvertLoss

variable (m : (ℓ : Loc nD τ sig) → Buf (Elt Ideal) ℓ)

/-- What point n adds to a cell: its tile's number times the cell's mask value (a function of every natural n; only
    points of the grid are ever asked for). -/
def addend (c : Dev nD) (n : ℕ) (y : S8x128.Idx) : EReal :=
  tileSum (m ((c : Thread nD τ).loc main_arg0)) (m ((c : Thread nD τ).loc main_arg1)) n * hot (y 0).val (y 1).val

/-- The block after a half's first step, at point n. -/
def first (c : Dev nD) (n : ℕ) (h : n < cfg0.N) : Vec Ideal S8x128 .f32 :=
  k0_pay1 (k0_pay3 (grid0.coords ⟨n, h⟩) (iblk m c 0 ⟨n, h⟩) (iblk m c 1 ⟨n, h⟩)) (k0_pay4 (F := Ideal))
    (k0_pay5 (k0_pay2 (F := Ideal)))

/-- The block after a later step at point n, from the block acc the step before left. -/
def next (c : Dev nD) (n : ℕ) (h : n < cfg0.N) (acc : Vec Ideal S8x128 .f32) : Vec Ideal S8x128 .f32 :=
  k0_pay1 (k0_pay3 (grid0.coords ⟨n, h⟩) (iblk m c 0 ⟨n, h⟩) (iblk m c 1 ⟨n, h⟩)) (k0_pay4 (F := Ideal)) (k0_pay5 acc)

/-- At a half's first point the block is the first step's. -/
theorem outs_first (c : Dev nD) (n : ℕ) (h : n < cfg0.N) (h0 : n % 16 = 0) : outsAt0 m c n h = first m c n h :=
  (outsAt0_A m c ⟨n, h⟩ h0).trans
    (Step.out_A c (grid0.coords ⟨n, h⟩) (ms0_0 ⟨n, h⟩) (hs0_0 ⟨n, h⟩) (ms0_1 ⟨n, h⟩) (hs0_1 ⟨n, h⟩) (ms0_2 ⟨n, h⟩)
      (hs0_2 ⟨n, h⟩) ((hcond0_0 ⟨n, h⟩).mpr h0) (iblk m c 0 ⟨n, h⟩) (iblk m c 1 ⟨n, h⟩))

/-- At every other point it is the step applied to what the point before left. -/
theorem outs_next (c : Dev nD) (n : ℕ) (h : n + 1 < cfg0.N) (hB : ¬(n + 1) % 16 = 0) :
    outsAt0 m c (n + 1) h = next m c (n + 1) h (outsAt0 m c n (Nat.lt_of_succ_lt h)) :=
  (outsAt0_B m c ⟨n + 1, h⟩ hB).trans
    (Step.out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hc => hB ((hcond0_0 ⟨n + 1, h⟩).mp hc)) (iblk m c 0 ⟨n + 1, h⟩)
      (iblk m c 1 ⟨n + 1, h⟩) (outsAt0 m c n (Nat.lt_of_succ_lt h)))

/-- The first step at a cell: zero plus the point's addend. -/
theorem first_apply (c : Dev nD) (b : ℕ) (h : b < cfg0.N) (y : S8x128.Idx) :
    first m c b h y = 0 + addend m c b y := by
  obtain ⟨p, q, rfl⟩ : ∃ (p : Fin 8) (q : Fin 128), y = ix2 p q := ⟨y 0, y 1, eq_ix2 y⟩
  unfold first addend
  rw [Body.pay1_apply, Body.pay5_eq, Body.pay2_apply, Body.pay4_apply, Blocks.tile_eq m c ⟨b, h⟩ 0 0]

/-- A later step at a cell: the carried cell plus the point's addend. -/
theorem next_apply (c : Dev nD) (n : ℕ) (h : n < cfg0.N) (acc : Vec Ideal S8x128 .f32) (y : S8x128.Idx) :
    next m c n h acc y = acc y + addend m c n y := by
  obtain ⟨p, q, rfl⟩ : ∃ (p : Fin 8) (q : Fin 128), y = ix2 p q := ⟨y 0, y 1, eq_ix2 y⟩
  unfold next addend
  rw [Body.pay1_apply, Body.pay5_eq, Body.pay4_apply, Blocks.tile_eq m c ⟨n, h⟩ 0 0]

/-- AFTER HALF q's LAST STEP (point 16 q + 15) a cell holds zero plus the sixteen addends of the half. -/
theorem outs_last (c : Dev nD) (q : ℕ) (h : 16 * q + 15 < cfg0.N) (y : S8x128.Idx) :
    outsAt0 m c (16 * q + 15) h y = 0 + ∑ s ∈ Finset.range 16, addend m c (16 * q + s) y := by
  refine (congrFun (Pipeline.eq_accAt (fun n hn => outsAt0 m c n hn) 16 (first m c) (next m c) (outs_first m c)
    (outs_next m c) q 15 (by decide) h) y).trans ?_
  exact Pipeline.accAt_add_apply (first m c) (next m c) (fun _ => (0 : EReal)) (addend m c) (16 * q) 15
    (fun hb i => first_apply m c _ hb i) (fun n hn acc i _ _ => next_apply m c n hn acc i) 15 (le_refl _) h y

end Cert.InvertLoss.Accum

end
-- ==== Proof.Final.lean ====
/-
  The 16 × 128 array after the region, the host's sum of it, and the tiled program's run, at the exact values.

  The accumulator's window is written back only after a half's last step (points 15 and 31), and block q of the array
  (rows 8 q … 8 q + 7) is what point 16 q + 15 wrote. So row P, column k of the array holds: zero, plus for each of the
  sixteen tiles of half P / 8 that tile's number times the mask value of cell (P % 8, k). The two blocks cover the
  array. The host then adds all 2048 cells to a zero; by the regrouping law that is zero plus the loss.
-/
import proofs.«121351_j68779606278977_2_alg».proof.Proof.Gen.KernelIdeal.Frame
import proofs.«121351_j68779606278977_2_alg».proof.Proof.Spec
import proofs.«121351_j68779606278977_2_alg».proof.Proof.Blocks
import proofs.«121351_j68779606278977_2_alg».proof.Proof.Accum
import Idealize.ShloMosaic.Lib.Pipeline.Value
import Idealize.ShloMosaic.Lib.StableHlo.Run
import Idealize.ShloMosaic.Lib.ValueIdx
import Idealize.ShloMosaic.Lib.Tactic
import Idealize.ShloMosaic.PureOps.Ideal.Laws

noncomputable section

open scoped BigOperators

namespace Cert.InvertLoss.Final

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen Cert.InvertLoss

variable (m : (ℓ : Loc nD τ sig) → Buf (Elt Ideal) ℓ) (ρ : Dev nD → PrngReg)

/-- The array after the region: row P, column k. -/
def cells (c : Dev nD) : S16x128.Idx → EReal := fun y =>
  0 + ∑ s ∈ Finset.range 16,
    tileSum (m ((c : Thread nD τ).loc main_arg0)) (m ((c : Thread nD τ).loc main_arg1)) (16 * ((y 0).val / 8) + s)
      * hot ((y 0).val % 8) (y 1).val

/-- The result: the zero the host starts from, plus the loss. -/
def result (c : Dev nD) : S_.Idx → EReal := fun _ =>
  Ideal.ofBits .f32 0x00000000#32 + loss (m ((c : Thread nD τ).loc main_arg0)) (m ((c : Thread nD τ).loc main_arg1))

/-- What a writing point writes back is its block of that array. -/
theorem flushed_eq (c : Dev nD) (t : Fin cfg0.N) (hf : (cfg0.win 2).flush t = true) :
    (dats m 0 c).flushed 2 t = ((cfg0.win 2).blk t).view.read (Elt Ideal) (cells m c) := by
  have hN : t.val < 32 := lt_of_lt_of_eq t.isLt (show cfg0.N = 32 from N_0)
  have h15 : t.val % 16 = 15 := (flush0_2 t).mp hf
  funext y
  obtain ⟨p, q, rfl⟩ : ∃ (p : Fin 8) (q : Fin 128), y = ix2 p q := ⟨y 0, y 1, eq_ix2 (n0 := 8) (n1 := 128) y⟩
  show ((cfg0.win 2).cut (grid0.coords t) ((dats m 0 c).after 2 t) : S8x128.Idx → EReal) (ix2 p q) = _
  rw [after0_2, View.read_apply]
  show outsAt0 m c t.val t.isLt (ix2 p q) = cells m c (((cfg0.win 2).blk t).view.emb (ix2 p q))
  have hp := p.isLt
  have ht : t.val = 16 * (t.val / 16) + 15 := by omega
  have key : ∀ (n : ℕ) (hn : n < cfg0.N), n = 16 * (t.val / 16) + 15 →
      outsAt0 m c n hn (ix2 p q) = 0 + ∑ s ∈ Finset.range 16, Accum.addend m c (16 * (t.val / 16) + s) (ix2 p q) := by
    intro n hn e
    subst e
    exact Accum.outs_last m c (t.val / 16) hn (ix2 p q)
  have hR : 8 * (t.val / 16) + p.val < 16 := by omega
  have hemb : ((cfg0.win 2).blk t).view.emb (ix2 p q) = (ix2 (⟨8 * (t.val / 16) + p.val, hR⟩ : Fin 16) q : S16x128.Idx) := by
    funext a
    apply Fin.ext
    match a with
    | ⟨0, _⟩ => show win0_2.index t 0 * 8 + 1 * p.val = 8 * (t.val / 16) + p.val; rw [(Blocks.idxF2 t).1]; omega
    | ⟨1, _⟩ => show win0_2.index t 1 * 128 + 1 * q.val = q.val; rw [(Blocks.idxF2 t).2]; omega
  rw [key t.val t.isLt ht, hemb]
  unfold cells Accum.addend
  have hd : (8 * (t.val / 16) + p.val) / 8 = t.val / 16 := by omega
  have hm : (8 * (t.val / 16) + p.val) % 8 = p.val := by omega
  show _ = 0 + ∑ s ∈ Finset.range 16,
    tileSum (m ((c : Thread nD τ).loc main_arg0)) (m ((c : Thread nD τ).loc main_arg1)) (16 * ((8 * (t.val / 16) + p.val) / 8) + s)
      * hot ((8 * (t.val / 16) + p.val) % 8) q.val
  rw [hd, hm]

/-- The two written blocks cover the array: row P lies in block P / 8, written by point 16 (P / 8) + 15. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 16 := (i 0).isLt
  have h1 : (i 1 : Nat) < 128 := (i 1).isLt
  have hN : cfg0.N = 32 := N_0
  have hlt : 16 * ((i 0 : Nat) / 8) + 15 < cfg0.N := by rw [hN]; omega
  refine ⟨⟨16 * ((i 0 : Nat) / 8) + 15, hlt⟩, (flush0_2 _).mpr (by show (16 * ((i 0 : Nat) / 8) + 15) % 16 = 15; omega), ?_⟩
  show i ∈ ((View.whole main_v1).slice (win0_2.rect ⟨16 * ((i 0 : Nat) / 8) + 15, hlt⟩)).set
  rw [View.set_slice_whole, Rect.mem_set_unit]
  intro a
  have e0 := (Blocks.idxF2 ⟨16 * ((i 0 : Nat) / 8) + 15, hlt⟩).1
  have e1 := (Blocks.idxF2 ⟨16 * ((i 0 : Nat) / 8) + 15, hlt⟩).2
  match a with
  | ⟨0, _⟩ =>
    show win0_2.index ⟨16 * ((i 0 : Nat) / 8) + 15, hlt⟩ 0 * 8 ≤ (i 0 : Nat)
      ∧ (i 0 : Nat) < win0_2.index ⟨16 * ((i 0 : Nat) / 8) + 15, hlt⟩ 0 * 8 + 8
    rw [e0]
    show (16 * ((i 0 : Nat) / 8) + 15) / 16 * 8 ≤ (i 0 : Nat) ∧ (i 0 : Nat) < (16 * ((i 0 : Nat) / 8) + 15) / 16 * 8 + 8
    omega
  | ⟨1, _⟩ =>
    show win0_2.index ⟨16 * ((i 0 : Nat) / 8) + 15, hlt⟩ 1 * 128 ≤ (i 1 : Nat)
      ∧ (i 1 : Nat) < win0_2.index ⟨16 * ((i 0 : Nat) / 8) + 15, hlt⟩ 1 * 128 + 128
    rw [e1]
    omega

/-- So the array ends holding the cells. -/
theorem final (c : Dev nD) : (dats m 0 c).arrAt 2 cfg0.N = cells m c :=
  (dats m 0 c).arrAt_eq_of_cover 2 (cells m c) (flushed_eq m c) (cover c)

/-- The host's sum of the array is zero plus the loss. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have hw : (Pipeline.withArrays (cfgs 0).spec c (V0 m c) (fun w => (dats m 0 c).arrAt w (cfgs 0).N)
      (Proc.devRef .tc main_v1) : S16x128.Idx → EReal) = cells m c :=
    (Pipeline.withArrays_arr spec0 launch0.win.arr_inj c _ _ 2).trans (final m c)
  rw [hw]
  funext i
  simp only [Host.reduceAdd, Ideal.hostReduceAdd_def]
  refine (Ideal.hostReduceAdd_total reducesTo_S16x128_S_d0_1 (fun b => b.elim0) (cells m c) _ i).trans ?_
  rw [sum_idx2]
  unfold result
  rw [loss_eq_tiles, ← cells_sum]
  rfl

/-- THE TILED PROGRAM'S RUN: it ends with its result at zero plus the loss of its arguments, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.InvertLoss.Final

end
-- ==== Proof.lean ====
/- The squared distance of diag(x)·a from the identity matrix, computed two ways, is one number.

   For a vector x of length 8192 and a matrix a of side 8192 both programs compute
       0 + Σ_R Σ_j (x R · a R j − δ R j)²
   over the extended reals. The plain program adds all 8192² squared residuals in one sum (Proof/RefValue.lean). The
   tiled program walks 32 tiles of 256 rows: each grid step sums its tile's squared residuals into one number
   (Proof/Payload.lean, Proof/Blocks.lean), multiplies it by a mask that is 1 at one cell of an 8 × 128 block and 0
   elsewhere, and adds that to the block carried through the half's sixteen steps (Proof/Pieces.lean,
   Proof/Accum.lean); the two blocks are written to a 16 × 128 array, which the host sums (Proof/Final.lean).
   Regrouping a finite sum, x·0 = 0, x·1 = x and 0 + x = x hold for every extended real, so the two results agree
   for every input (Proof/Spec.lean); the inputs' finiteness is not used. Row numbers stay far below 2³², so the
   32-bit row and column words compare as the numbers do (Proof/Words.lean).

   Each program runs to the end, leaving its arguments as they were; the tiled program read at exact values is the
   tiled program's own text, nothing rewritten. -/
import proofs.«121351_j68779606278977_2_alg».proof.Defs
import proofs.«121351_j68779606278977_2_alg».proof.Proof.Gen.Kernel
import proofs.«121351_j68779606278977_2_alg».proof.Proof.Gen.Kernel.Skeleton
import proofs.«121351_j68779606278977_2_alg».proof.Proof.Gen.Kernel.Launch
import proofs.«121351_j68779606278977_2_alg».proof.Proof.Gen.Kernel.Points
import proofs.«121351_j68779606278977_2_alg».proof.Proof.Gen.Kernel.Frame
import proofs.«121351_j68779606278977_2_alg».proof.Proof.Gen.KernelIdeal
import proofs.«121351_j68779606278977_2_alg».proof.Proof.Gen.KernelIdeal.Skeleton
import proofs.«121351_j68779606278977_2_alg».proof.Proof.Gen.KernelIdeal.Launch
import proofs.«121351_j68779606278977_2_alg».proof.Proof.Gen.KernelIdeal.Points
import proofs.«121351_j68779606278977_2_alg».proof.Proof.Gen.KernelIdeal.Frame
import proofs.«121351_j68779606278977_2_alg».proof.Proof.Gen.ReferenceIdeal
import proofs.«121351_j68779606278977_2_alg».proof.Proof.Gen.ReferenceIdeal.Run
import proofs.«121351_j68779606278977_2_alg».proof.Proof.Gen.ReferenceIdeal.Read
import proofs.«121351_j68779606278977_2_alg».proof.Proof.Gen.Pre_finite_inputs
import proofs.«121351_j68779606278977_2_alg».proof.Proof.Spec
import proofs.«121351_j68779606278977_2_alg».proof.Proof.RefValue
import proofs.«121351_j68779606278977_2_alg».proof.Proof.Final
import Idealize.ShloMosaic.Adequacy
import Idealize.ShloMosaic.Init

noncomputable section

namespace Cert.Proof

open Idealize.ShloMosaic Idealize.SL.Sem

/-- The tiled program, as printed, runs to the end and leaves its arguments unchanged. -/
theorem frame_k : Cert.frame_Kernel := fun m ρ _ => Cert.Kernel.Gen.frame m ρ

/-- So does the tiled program read at exact values. -/
theorem frame_ki : Cert.frame_KernelIdeal := fun m ρ _ => Cert.KernelIdeal.Gen.frame m ρ

/-- So does the plain program: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the tiled program was read at exact values. -/
theorem preserves : Cert.preserves_Kernel_KernelIdeal := trivial

/-- From memories that agree on x and a, the tiled program ends at zero plus the loss of its arguments and the plain
    program at zero plus the loss of its own: the same number. -/
theorem algebraic : Cert.algebraic_KernelIdeal_ReferenceIdeal := by
  intro m ρ m' ρ' _ hagree
  refine ⟨fun c => Cert.InvertLoss.Final.result m c, Cert.InvertLoss.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.InvertLoss.Ref.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
